-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S32x512x512 : Shape := ⟨3, ![32, 512, 512]⟩
abbrev S32x8x128 : Shape := ⟨3, ![32, 8, 128]⟩
abbrev S1x512x512 : Shape := ⟨3, ![1, 512, 512]⟩
abbrev S1x8x128 : Shape := ⟨3, ![1, 8, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 44
  | .vmem => 20
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x512x512, .f32⟩
  | .hbm, ⟨3, _⟩ => ⟨S32x512x512, .f32⟩
  | .hbm, ⟨4, _⟩ => ⟨S32x8x128, .f32⟩
  | .hbm, ⟨5, _⟩ => ⟨S32x8x128, .f32⟩
  | .hbm, ⟨6, _⟩ => ⟨S32x8x128, .f32⟩
  | .hbm, ⟨7, _⟩ => ⟨S32x8x128, .f32⟩
  | .hbm, ⟨8, _⟩ => ⟨S32x8x128, .f32⟩
  | .hbm, ⟨9, _⟩ => ⟨S32x1x1, .f32⟩
  | .hbm, ⟨10, _⟩ => ⟨S32, .f32⟩
  | .hbm, ⟨11, _⟩ => ⟨S32x1x1, .f32⟩
  | .hbm, ⟨12, _⟩ => ⟨S32, .f32⟩
  | .hbm, ⟨13, _⟩ => ⟨S32x1x1, .f32⟩
  | .hbm, ⟨14, _⟩ => ⟨S32, .f32⟩
  | .hbm, ⟨15, _⟩ => ⟨S32x1x1, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .i1⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x1x512x512_S32x512x512 : S32x1x512x512.ShapeCasts S32x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  broadcasts_S1x1_S512x512 : S1x1.Broadcasts S512x512
  natLt_1_32 : 1 < 32
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S32x512x512.size a
  hwx1_0 : ∀ i : grid1.Coords, EltTy.bits .f32 = 32 ∨ (Rect.block (s := S32x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .f32 = 32 ∨ (Rect.block (s := S32x512x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S32x8x128.size a
  hwx1_2 : ∀ i : grid1.Coords, EltTy.bits .f32 = 32 ∨ (Rect.block (s := S32x8x128) S1x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S32x8x128.size a
  hwx1_3 : ∀ i : grid1.Coords, EltTy.bits .f32 = 32 ∨ (Rect.block (s := S32x8x128) S1x8x128.size (cc1_transform_3 i) (hinb1_3 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1x512x512 : Shape := ⟨4, ![32, 1, 512, 512]⟩
abbrev S32x262144 : Shape := ⟨2, ![32, 262144]⟩
abbrev S_ : Shape := ⟨0, ![]⟩
abbrev S32 : Shape := ⟨1, ![32]⟩
abbrev S32x1 : Shape := ⟨2, ![32, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x262144, .f32⟩
  | .hbm, ⟨3, _⟩ => ⟨S32x262144, .f32⟩
  | .hbm, ⟨4, _⟩ => ⟨S_, .f32⟩
  | .hbm, ⟨5, _⟩ => ⟨S32x262144, .f32⟩
  | .hbm, ⟨6, _⟩ => ⟨S32x262144, .i1⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S32x262144, .f32⟩
  | .hbm, ⟨11, _⟩ => ⟨S32x262144, .i1⟩
  | .hbm, ⟨12, _⟩ => ⟨S32x262144, .i1⟩
  | .hbm, ⟨13, _⟩ => ⟨S32x262144, .i32⟩
  | .hbm, ⟨14, _⟩ => ⟨S_, .i32⟩
  | .hbm, ⟨15, _⟩ => ⟨S32, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32x262144, .f32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .i1⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_call0_v0 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  shapeCasts_S32x1x512x512_S32x262144 : S32x1x512x512.ShapeCasts S32x262144
  bcast_S_S32x262144 : S_.BroadcastsInDim S32x262144 (![] : Fin 0 → Fin S32x262144.rank)
  reducesTo_S32x262144_S32_d1 : S32x262144.ReducesTo [1] S32
  h_S_ : 0 < S_.numel
  bcast_S32_S32x1_0 : S32.BroadcastsInDim S32x1 (![0] : Fin 1 → Fin S32x1.rank)
  bcast_S32x1_S32x262144_0_1 : S32x1.BroadcastsInDim S32x262144 (![0, 1] : Fin 2 → Fin S32x262144.rank)
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.KernelRun.lean ====
/-
  The kernel program's run with its result named.

  The program is a stretch of host operations (two reshapes), two kernel launches, and three more stretches of host
  operations that turn the launches' five output arrays into one number. The buffers' contents at each boundary are
  a fold from the launch memory; after the last stretch every buffer the host can see holds the last boundary's
  contents. Read at the result buffer, that is the value of the whole program; read at the two argument buffers, it
  is the launch memory again, since nothing writes them.
-/
import proofs.«146692_j19842748907779_2_alg».proof.Proof.Gen.KernelIdeal.Frame

set_option maxRecDepth 16384

noncomputable section

namespace Cert.Dice.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the two argument arrays as launched. -/
theorem run_named : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c)⟩)

end Cert.Dice.KRun

end
-- ==== Proof.Spec.lean ====
/-
  The soft-dice loss with its pixel-accuracy escape, written once as a function of the two input arrays.

  Each of the 32 samples is a 512 × 512 image of predictions `p` and one of targets `t`. Four statistics are taken
  of a sample: the total of `p`, the total of `t`, the total of the products `p · t`, and the number of pixels at
  which "the prediction exceeds one half" and "the target equals the sample's largest target" are both true or both
  false. The loss is then a fixed function of these four vectors of 32 numbers: with `acc = hits / 1` and
  `score = 2 (Σ p·t + 1) / (Σ p + Σ t + 1)`, replaced by `1` where `acc = 1`, it is the mean of `1 - score`.

  Totals are taken rows first, then over the rows; the largest target likewise. Both are sums and suprema in a
  commutative monoid and a complete lattice, so any other grouping gives the same value on the extended reals.
-/
import Idealize.ShloMosaic.PureOps.Ideal
import Idealize.ShloMosaic.PureOps.Ideal.Laws
import Idealize.ShloMosaic.Lib.ValueIdx

noncomputable section

open scoped BigOperators

namespace Cert.Dice

open Idealize.ShloMosaic Idealize.ShloMosaic.ValueIdx

/-- One sample: a 512 × 512 image of extended reals. -/
abbrev Img := Fin 512 → Fin 512 → EReal

/-- Sample `b` of an array of 32 one-channel images. -/
def samp (P : (⟨4, ![32, 1, 512, 512]⟩ : Shape).Idx → EReal) (b : Fin 32) : Img := fun r c => P (ix4 b 0 r c)

/-- The total of an image: each row's sum, then the sum of those. -/
def total (f : Img) : EReal := ∑ r : Fin 512, ∑ c : Fin 512, f r c

/-- The largest entry of an image: each row's supremum, then the supremum of those. -/
def peak (g : Img) : EReal := Finset.univ.sup fun r : Fin 512 => Finset.univ.sup fun c : Fin 512 => g r c

/-- One half, as the f32 word both programs write. -/
abbrev half : EReal := Ideal.ofBits .f32 0x3F000000#32

/-- Whether "the prediction `x` exceeds one half" and "the target `t` is the largest target `mx`" agree. -/
def agree (x t mx : EReal) : BitVec 1 := IntOp.cmpi .eq (Ideal.cmp .ogt x half) (Ideal.cmp .oeq t mx)

/-- The agreement bit as the real number 0 or 1. -/
def agreeVal (x t mx : EReal) : EReal := ((((agree x t mx).setWidth 32).toInt : ℝ) : EReal)

/-- The number of pixels of a sample at which the two tests agree. -/
def hits (f g : Img) : EReal := ∑ r : Fin 512, ∑ c : Fin 512, agreeVal (f r c) (g r c) (peak g)

/-- A vector of 32 numbers. -/
def vec32 (f : Fin 32 → EReal) : FVec Ideal ⟨1, ![32]⟩ .f32 := fun i => f (i 0)

theorem vec32_apply (f : Fin 32 → EReal) (b : Fin 32) : vec32 f (ix1 b) = f b := rfl

/-- A vector of 32 numbers is `vec32` of its entries. -/
theorem eq_vec32 (v : FVec Ideal ⟨1, ![32]⟩ .f32) (f : Fin 32 → EReal) (h : ∀ b, v (ix1 b) = f b) : v = vec32 f := by
  funext i; rw [eq_ix1 i]; exact h (i 0)

section Tail

variable (hb : (⟨0, ![]⟩ : Shape).BroadcastsInDim ⟨1, ![32]⟩ (![] : Fin 0 → Fin 1))
  (hr : (⟨1, ![32]⟩ : Shape).ReducesTo [0] ⟨0, ![]⟩) (hs : 0 < (⟨0, ![]⟩ : Shape).numel)

/-- A constant repeated 32 times. -/
def rep32 (w : BitVec 32) : FVec Ideal ⟨1, ![32]⟩ .f32 :=
  broadcastInDim ⟨1, ![32]⟩ ![] hb (constant (F := Ideal) ⟨0, ![]⟩ .f32 w)

/-- The loss as a function of the four vectors of per-sample statistics. -/
def lossOf (corr sp st spt : FVec Ideal ⟨1, ![32]⟩ .f32) : FVec Ideal ⟨0, ![]⟩ .f32 :=
  Host.divf (F := Ideal)
    (Host.reduceAdd (F := Ideal)
      (subf (rep32 hb 0x3F800000#32)
        (select (cmpf .oeq (Host.divf (F := Ideal) corr (rep32 hb 0x3F800000#32)) (rep32 hb 0x3F800000#32))
          (rep32 hb 0x3F800000#32)
          (Host.divf (F := Ideal) (mulf (rep32 hb 0x40000000#32) (addf spt (rep32 hb 0x3F800000#32)))
            (addf (addf sp st) (rep32 hb 0x3F800000#32)))))
      (constant (F := Ideal) ⟨0, ![]⟩ .f32 0x00000000#32) hr hs)
    (constant (F := Ideal) ⟨0, ![]⟩ .f32 0x42000000#32)

/-- The loss of the two input arrays. -/
def loss (P T : (⟨4, ![32, 1, 512, 512]⟩ : Shape).Idx → EReal) : FVec Ideal ⟨0, ![]⟩ .f32 :=
  lossOf hb hr hs
    (vec32 fun b => hits (samp P b) (samp T b))
    (vec32 fun b => total (samp P b))
    (vec32 fun b => total (samp T b))
    (vec32 fun b => total fun r c => samp P b r c * samp T b r c)

end Tail

end Cert.Dice

end
-- ==== Proof.KernelTail.lean ====
/-
  The kernel program's host tail.

  After the two launches the program takes, of each of four output arrays of shape [32, 8, 128], the entry (b, 0, 0)
  of every sample b — a slice [0:32, 0:1, 0:1] and a reshape to [32] — and combines the four vectors of 32 numbers
  into the loss. Every one of the 8 × 128 entries of a sample's tile holds the same statistic, so the corner is as good
  as any. The combination is the specification's `lossOf`, operation for operation.
-/
import proofs.«146692_j19842748907779_2_alg».proof.Proof.Gen.KernelIdeal.Frame
import proofs.«146692_j19842748907779_2_alg».proof.Proof.Spec
import Idealize.ShloMosaic.Lib.StableHlo.Run

set_option maxRecDepth 16384

noncomputable section

namespace Cert.Dice.KTail

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The vector of the entries (b, 0, 0) of an array [32, 8, 128]. -/
def corner (A : FVec Ideal S32x8x128 .f32) : FVec Ideal S32 .f32 :=
  shapeCast S32 (extractStridedSlice S32x1x1 ![0, 0, 0] A slices_S32x8x128_S32x1x1_0_0_0) shapeCasts_S32x1x1_S32

set_option maxHeartbeats 1000000 in
/-- The result buffer at the last boundary is the loss of the four corner vectors of the launches' outputs. -/
theorem tail_eq (c : Dev nD) :
    W6 m ρ c (Proc.devRef .tc main_v28)
      = Cert.Dice.lossOf bcast_S_S32 reducesTo_S32_S_d0 h_S_
          (corner (W3 m ρ c (Proc.devRef .tc main_v3)))
          (corner (W3 m ρ c (Proc.devRef .tc main_v2_1)))
          (corner (W3 m ρ c (Proc.devRef .tc main_v2_2)))
          (corner (W3 m ρ c (Proc.devRef .tc main_v2_3))) := by
  show StableHlo.after hostOps2_2 (StableHlo.after hostOps2_1 (StableHlo.after hostOps2 (W3 m ρ c))) (Proc.devRef .tc main_v28) = _
  dsimp only [hostOps2, hostOps2_1, hostOps2_2]
  after_results_simp
  rfl

end Cert.Dice.KTail

end
-- ==== Proof.Region0.lean ====
/-
  The first launch's four output arrays, each as one function of the arrays it reads.

  The launch visits the 32 samples in turn. At sample `b` it reads block `b` of the predictions and of the targets,
  each a whole 512 × 512 image, and writes block `b` of four arrays of shape [32, 8, 128]: every entry of the
  8 × 128 tile holds one statistic of the sample. The tiles of the 32 samples fill each output array, so afterwards
  entry (b, i, j) holds the statistic of sample `b`, whatever i and j.
-/
import proofs.«146692_j19842748907779_2_alg».proof.Proof.Gen.KernelIdeal.Frame
import proofs.«146692_j19842748907779_2_alg».proof.Proof.Spec
import Idealize.ShloMosaic.Lib.Pipeline.Value
import Idealize.ShloMosaic.Lib.ValueIdx

set_option maxRecDepth 16384

noncomputable section

namespace Cert.Dice.Reg0

open Cert.KernelIdeal Cert.KernelIdeal.Gen Cert.Dice
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Sample `b` of an array of 32 images. -/
def imgOf (A : S32x512x512.Idx → EReal) (b : Fin 32) : Img := fun r c => A (ix3 b r c)

/-- A block holding one image, as that image. -/
def img (x : S1x512x512.Idx → EReal) : Img := fun r c => x (ix3 (0 : Fin 1) r c)

theorem hz : (![0, 0, 0] : Fin 3 → Nat) = fun _ => 0 := funext fun a => by fin_cases a <;> rfl

/-- At point `t` every window's block is block `t` along the sample axis and the only block along the other two. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The block of predictions at point `t` is sample `t` of the array the launch finds. -/
theorem img_blk0 (c : Dev nD) (t : Fin cfg0.N) : img (iblk0 V c 0 t) = imgOf (V c main_v0) (t.cast N_0) := by
  funext r cc
  obtain ⟨⟨e0, e1, e2⟩, -⟩ := idx_facts t
  show V c main_v0 (((cfg0.win 0).blk t).view.emb (ix3 (0 : Fin 1) r cc)) = V c main_v0 (ix3 (t.cast N_0) r cc)
  refine congrArg (V c main_v0) (funext fun a => Fin.ext ?_)
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 512 + 1 * cc.val = cc.val; omega

/-- The block of targets at point `t` is sample `t` of the array the launch finds. -/
theorem img_blk1 (c : Dev nD) (t : Fin cfg0.N) : img (iblk0 V c 1 t) = imgOf (V c main_v1) (t.cast N_0) := by
  funext r cc
  obtain ⟨-, ⟨e0, e1, e2⟩, -⟩ := idx_facts t
  show V c main_v1 (((cfg0.win 1).blk t).view.emb (ix3 (0 : Fin 1) r cc)) = V c main_v1 (ix3 (t.cast N_0) r cc)
  refine congrArg (V c main_v1) (funext fun a => Fin.ext ?_)
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 512 + 1 * cc.val = cc.val; omega

/-- An array [32, 8, 128] whose entry (b, i, j) is `f b`. -/
def tiled (f : Fin 32 → EReal) : S32x8x128.Idx → EReal := fun i => f (i 0)

theorem tiled_apply (f : Fin 32 → EReal) (b : Fin 32) (i : Fin 8) (j : Fin 128) : tiled f (ix3 b i j) = f b := rfl

/-! ## Output window 2: the largest target -/

theorem mem_blk2 (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2_0).slice (win0_2.rect t)).set ↔ _
  rw [View.set_slice_whole, Rect.mem_set_unit]
  exact Iff.rfl

/-- The 32 tiles fill the array. -/
theorem cover2 (i : S32x8x128.Idx) : ∃ t : Fin cfg0.N, (cfg0.win 2).flush t = true ∧ i ∈ ((cfg0.win 2).blk t).view.set := by
  have h0 : (i 0).val < 32 := (i 0).isLt
  have h1 : (i 1).val < 8 := (i 1).isLt
  have h2 : (i 2).val < 128 := (i 2).isLt
  let t : Fin cfg0.N := (⟨(i 0).val, h0⟩ : Fin 32).cast N_0.symm
  obtain ⟨-, -, ⟨e0, e1, e2⟩, -⟩ := idx_facts t
  have ht : t.val = (i 0).val := rfl
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- What point `t` writes back is tile `t` of the array whose every tile holds its sample's statistic. -/
theorem flushed2 (hpay : ∀ (x1 : Vec Ideal S1x512x512 .f32) (i : Fin 8) (j : Fin 128), k0_pay6 (F := Ideal) x1 (ix3 (0 : Fin 1) i j) = peak (img x1))
    (c : Dev nD) (t : Fin cfg0.N) :
    (dat0 V c).flushed 2 t = ((cfg0.win 2).blk t).view.read (Elt Ideal) (tiled fun b => peak (imgOf (V c main_v1) b)) := by
  show (cfg0.win 2).cut (grid0.coords t) ((dat0 V c).after 2 t) = _
  rw [after0_2]
  unfold out0_2
  rw [View.canon_unit_zero hz]
  simp only [View.ld_unit_zero (S := S1x512x512) hz]
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (hpay (iblk0 V c 1 t) i j).trans ?_
  rw [img_blk1 V c t]
  obtain ⟨-, -, ⟨e0, e1, e2⟩, -⟩ := idx_facts t
  show peak (imgOf (V c main_v1) (t.cast N_0)) = peak (imgOf (V c main_v1) ((((cfg0.win 2).blk t).view.emb (ix3 (0 : Fin 1) i j)) 0))
  refine congrArg (fun b => peak (imgOf (V c main_v1) b)) (Fin.ext ?_)
  show t.val = win0_2.index t (0 : Fin 3) * 1 + 1 * 0
  omega

/-- After the launch, entry (b, i, j) of the array holds sample `b`'s statistic. -/
theorem arr2 (hpay : ∀ (x1 : Vec Ideal S1x512x512 .f32) (i : Fin 8) (j : Fin 128), k0_pay6 (F := Ideal) x1 (ix3 (0 : Fin 1) i j) = peak (img x1))
    (c : Dev nD) : (dat0 V c).arrAt 2 cfg0.N = tiled fun b => peak (imgOf (V c main_v1) b) :=
  (dat0 V c).arrAt_eq_of_cover 2 _ (fun t _ => flushed2 V hpay c t) cover2

/-! ## Output window 3: the total of the predictions -/

theorem mem_blk3 (t : Fin cfg0.N) (i : S32x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v2_1).slice (win0_3.rect t)).set ↔ _
  rw [View.set_slice_whole, Rect.mem_set_unit]
  exact Iff.rfl

/-- The 32 tiles fill the array. -/
theorem cover3 (i : S32x8x128.Idx) : ∃ t : Fin cfg0.N, (cfg0.win 3).flush t = true ∧ i ∈ ((cfg0.win 3).blk t).view.set := by
  have h0 : (i 0).val < 32 := (i 0).isLt
  have h1 : (i 1).val < 8 := (i 1).isLt
  have h2 : (i 2).val < 128 := (i 2).isLt
  let t : Fin cfg0.N := (⟨(i 0).val, h0⟩ : Fin 32).cast N_0.symm
  obtain ⟨-, -, -, ⟨e0, e1, e2⟩, -⟩ := idx_facts t
  have ht : t.val = (i 0).val := rfl
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- What point `t` writes back is tile `t` of the array whose every tile holds its sample's statistic. -/
theorem flushed3 (hpay : ∀ (x0 : Vec Ideal S1x512x512 .f32) (i : Fin 8) (j : Fin 128), k0_pay7 (F := Ideal) x0 (ix3 (0 : Fin 1) i j) = total (img x0))
    (c : Dev nD) (t : Fin cfg0.N) :
    (dat0 V c).flushed 3 t = ((cfg0.win 3).blk t).view.read (Elt Ideal) (tiled fun b => total (imgOf (V c main_v0) b)) := by
  show (cfg0.win 3).cut (grid0.coords t) ((dat0 V c).after 3 t) = _
  rw [after0_3]
  unfold out0_3
  rw [View.canon_unit_zero hz]
  simp only [View.ld_unit_zero (S := S1x512x512) hz]
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (hpay (iblk0 V c 0 t) i j).trans ?_
  rw [img_blk0 V c t]
  obtain ⟨-, -, -, ⟨e0, e1, e2⟩, -⟩ := idx_facts t
  show total (imgOf (V c main_v0) (t.cast N_0)) = total (imgOf (V c main_v0) ((((cfg0.win 3).blk t).view.emb (ix3 (0 : Fin 1) i j)) 0))
  refine congrArg (fun b => total (imgOf (V c main_v0) b)) (Fin.ext ?_)
  show t.val = win0_3.index t (0 : Fin 3) * 1 + 1 * 0
  omega

/-- After the launch, entry (b, i, j) of the array holds sample `b`'s statistic. -/
theorem arr3 (hpay : ∀ (x0 : Vec Ideal S1x512x512 .f32) (i : Fin 8) (j : Fin 128), k0_pay7 (F := Ideal) x0 (ix3 (0 : Fin 1) i j) = total (img x0))
    (c : Dev nD) : (dat0 V c).arrAt 3 cfg0.N = tiled fun b => total (imgOf (V c main_v0) b) :=
  (dat0 V c).arrAt_eq_of_cover 3 _ (fun t _ => flushed3 V hpay c t) cover3

/-! ## Output window 4: the total of the targets -/

theorem mem_blk4 (t : Fin cfg0.N) (i : S32x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v2_2).slice (win0_4.rect t)).set ↔ _
  rw [View.set_slice_whole, Rect.mem_set_unit]
  exact Iff.rfl

/-- The 32 tiles fill the array. -/
theorem cover4 (i : S32x8x128.Idx) : ∃ t : Fin cfg0.N, (cfg0.win 4).flush t = true ∧ i ∈ ((cfg0.win 4).blk t).view.set := by
  have h0 : (i 0).val < 32 := (i 0).isLt
  have h1 : (i 1).val < 8 := (i 1).isLt
  have h2 : (i 2).val < 128 := (i 2).isLt
  let t : Fin cfg0.N := (⟨(i 0).val, h0⟩ : Fin 32).cast N_0.symm
  obtain ⟨-, -, -, -, ⟨e0, e1, e2⟩, -⟩ := idx_facts t
  have ht : t.val = (i 0).val := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- What point `t` writes back is tile `t` of the array whose every tile holds its sample's statistic. -/
theorem flushed4 (hpay : ∀ (x1 : Vec Ideal S1x512x512 .f32) (i : Fin 8) (j : Fin 128), k0_pay1 (F := Ideal) (k0_pay8 (F := Ideal) x1) (ix3 (0 : Fin 1) i j) = total (img x1))
    (c : Dev nD) (t : Fin cfg0.N) :
    (dat0 V c).flushed 4 t = ((cfg0.win 4).blk t).view.read (Elt Ideal) (tiled fun b => total (imgOf (V c main_v1) b)) := by
  show (cfg0.win 4).cut (grid0.coords t) ((dat0 V c).after 4 t) = _
  rw [after0_4]
  unfold out0_4
  rw [View.canon_unit_zero hz]
  simp only [View.ld_unit_zero (S := S1x512x512) hz]
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (hpay (iblk0 V c 1 t) i j).trans ?_
  rw [img_blk1 V c t]
  obtain ⟨-, -, -, -, ⟨e0, e1, e2⟩, -⟩ := idx_facts t
  show total (imgOf (V c main_v1) (t.cast N_0)) = total (imgOf (V c main_v1) ((((cfg0.win 4).blk t).view.emb (ix3 (0 : Fin 1) i j)) 0))
  refine congrArg (fun b => total (imgOf (V c main_v1) b)) (Fin.ext ?_)
  show t.val = win0_4.index t (0 : Fin 3) * 1 + 1 * 0
  omega

/-- After the launch, entry (b, i, j) of the array holds sample `b`'s statistic. -/
theorem arr4 (hpay : ∀ (x1 : Vec Ideal S1x512x512 .f32) (i : Fin 8) (j : Fin 128), k0_pay1 (F := Ideal) (k0_pay8 (F := Ideal) x1) (ix3 (0 : Fin 1) i j) = total (img x1))
    (c : Dev nD) : (dat0 V c).arrAt 4 cfg0.N = tiled fun b => total (imgOf (V c main_v1) b) :=
  (dat0 V c).arrAt_eq_of_cover 4 _ (fun t _ => flushed4 V hpay c t) cover4

/-! ## Output window 5: the total of the products -/

theorem mem_blk5 (t : Fin cfg0.N) (i : S32x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v2_3).slice (win0_5.rect t)).set ↔ _
  rw [View.set_slice_whole, Rect.mem_set_unit]
  exact Iff.rfl

/-- The 32 tiles fill the array. -/
theorem cover5 (i : S32x8x128.Idx) : ∃ t : Fin cfg0.N, (cfg0.win 5).flush t = true ∧ i ∈ ((cfg0.win 5).blk t).view.set := by
  have h0 : (i 0).val < 32 := (i 0).isLt
  have h1 : (i 1).val < 8 := (i 1).isLt
  have h2 : (i 2).val < 128 := (i 2).isLt
  let t : Fin cfg0.N := (⟨(i 0).val, h0⟩ : Fin 32).cast N_0.symm
  obtain ⟨-, -, -, -, -, ⟨e0, e1, e2⟩⟩ := idx_facts t
  have ht : t.val = (i 0).val := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- What point `t` writes back is tile `t` of the array whose every tile holds its sample's statistic. -/
theorem flushed5 (hpay : ∀ (x0 x1 : Vec Ideal S1x512x512 .f32) (i : Fin 8) (j : Fin 128), k0_pay2 (F := Ideal) (k0_pay5 (F := Ideal) x0 x1) (ix3 (0 : Fin 1) i j) = total (fun r c => img x0 r c * img x1 r c))
    (c : Dev nD) (t : Fin cfg0.N) :
    (dat0 V c).flushed 5 t = ((cfg0.win 5).blk t).view.read (Elt Ideal) (tiled fun b => total (fun r cc => imgOf (V c main_v0) b r cc * imgOf (V c main_v1) b r cc)) := by
  show (cfg0.win 5).cut (grid0.coords t) ((dat0 V c).after 5 t) = _
  rw [after0_5]
  unfold out0_5
  rw [View.canon_unit_zero hz]
  simp only [View.ld_unit_zero (S := S1x512x512) hz]
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (hpay (iblk0 V c 0 t) (iblk0 V c 1 t) i j).trans ?_
  rw [img_blk0 V c t, img_blk1 V c t]
  obtain ⟨-, -, -, -, -, ⟨e0, e1, e2⟩⟩ := idx_facts t
  show total (fun r cc => imgOf (V c main_v0) (t.cast N_0) r cc * imgOf (V c main_v1) (t.cast N_0) r cc) = total (fun r cc => imgOf (V c main_v0) ((((cfg0.win 5).blk t).view.emb (ix3 (0 : Fin 1) i j)) 0) r cc * imgOf (V c main_v1) ((((cfg0.win 5).blk t).view.emb (ix3 (0 : Fin 1) i j)) 0) r cc)
  refine congrArg (fun b => total (fun r cc => imgOf (V c main_v0) b r cc * imgOf (V c main_v1) b r cc)) (Fin.ext ?_)
  show t.val = win0_5.index t (0 : Fin 3) * 1 + 1 * 0
  omega

/-- After the launch, entry (b, i, j) of the array holds sample `b`'s statistic. -/
theorem arr5 (hpay : ∀ (x0 x1 : Vec Ideal S1x512x512 .f32) (i : Fin 8) (j : Fin 128), k0_pay2 (F := Ideal) (k0_pay5 (F := Ideal) x0 x1) (ix3 (0 : Fin 1) i j) = total (fun r c => img x0 r c * img x1 r c))
    (c : Dev nD) : (dat0 V c).arrAt 5 cfg0.N = tiled fun b => total (fun r cc => imgOf (V c main_v0) b r cc * imgOf (V c main_v1) b r cc) :=
  (dat0 V c).arrAt_eq_of_cover 5 _ (fun t _ => flushed5 V hpay c t) cover5

end Cert.Dice.Reg0

end
-- ==== Proof.Region1.lean ====
/-
  The second launch's output array as one function of the arrays it reads.

  The launch visits the 32 samples again. At sample `b` it reads block `b` of the predictions and of the targets and
  the corner entry of block `b` of the array of largest targets, counts the pixels at which "the prediction exceeds
  one half" and "the target equals the largest target" agree, and writes the count to every entry of block `b` of an
  array of shape [32, 8, 128]. The 32 tiles fill that array.
-/
import proofs.«146692_j19842748907779_2_alg».proof.Proof.Region0

set_option maxRecDepth 16384

noncomputable section

open scoped BigOperators

namespace Cert.Dice.Reg1

open Cert.KernelIdeal Cert.KernelIdeal.Gen Cert.Dice Cert.Dice.Reg0
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The number of pixels of an image pair at which the two tests agree, against a given largest target. -/
def count (f g : Img) (mx : EReal) : EReal := ∑ r : Fin 512, ∑ cc : Fin 512, agreeVal (f r cc) (g r cc) mx

/-- The specification's count is this one at the image's own largest target. -/
theorem hits_eq (f g : Img) : hits f g = count f g (peak g) := rfl

/-- At point `t` every window's block is block `t` along the sample axis and the only block along the other two. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The block of predictions at point `t` is sample `t` of the array the launch finds. -/
theorem img_blk0 (c : Dev nD) (t : Fin cfg1.N) : img (iblk1 V c 0 t) = imgOf (V c main_v0) (t.cast N_1) := by
  funext r cc
  obtain ⟨⟨e0, e1, e2⟩, -⟩ := idx_facts t
  show V c main_v0 (((cfg1.win 0).blk t).view.emb (ix3 (0 : Fin 1) r cc)) = V c main_v0 (ix3 (t.cast N_1) r cc)
  refine congrArg (V c main_v0) (funext fun a => Fin.ext ?_)
  match a with
  | ⟨0, _⟩ => show win1_0.index t (0 : Fin 3) * 1 + 1 * 0 = t.val; omega
  | ⟨1, _⟩ => show win1_0.index t (1 : Fin 3) * 512 + 1 * r.val = r.val; omega
  | ⟨2, _⟩ => show win1_0.index t (2 : Fin 3) * 512 + 1 * cc.val = cc.val; omega

/-- The block of targets at point `t` is sample `t` of the array the launch finds. -/
theorem img_blk1 (c : Dev nD) (t : Fin cfg1.N) : img (iblk1 V c 1 t) = imgOf (V c main_v1) (t.cast N_1) := by
  funext r cc
  obtain ⟨-, ⟨e0, e1, e2⟩, -⟩ := idx_facts t
  show V c main_v1 (((cfg1.win 1).blk t).view.emb (ix3 (0 : Fin 1) r cc)) = V c main_v1 (ix3 (t.cast N_1) r cc)
  refine congrArg (V c main_v1) (funext fun a => Fin.ext ?_)
  match a with
  | ⟨0, _⟩ => show win1_1.index t (0 : Fin 3) * 1 + 1 * 0 = t.val; omega
  | ⟨1, _⟩ => show win1_1.index t (1 : Fin 3) * 512 + 1 * r.val = r.val; omega
  | ⟨2, _⟩ => show win1_1.index t (2 : Fin 3) * 512 + 1 * cc.val = cc.val; omega

/-- The corner of the block of largest targets at point `t` is entry (t, 0, 0) of the array the launch finds. -/
theorem corner_blk2 (c : Dev nD) (t : Fin cfg1.N) :
    View.ld (iblk1 V c 2 t) r1_1 (ix3 (0 : Fin 1) (0 : Fin 1) (0 : Fin 1)) = V c main_v2_0 (ix3 (t.cast N_1) (0 : Fin 8) (0 : Fin 128)) := by
  obtain ⟨-, -, ⟨e0, e1, e2⟩, -⟩ := idx_facts t
  show V c main_v2_0 (((cfg1.win 2).blk t).view.emb (r1_1.emb (ix3 (0 : Fin 1) (0 : Fin 1) (0 : Fin 1)))) = V c main_v2_0 (ix3 (t.cast N_1) (0 : Fin 8) (0 : Fin 128))
  refine congrArg (V c main_v2_0) (funext fun a => Fin.ext ?_)
  match a with
  | ⟨0, _⟩ => show win1_2.index t (0 : Fin 3) * 1 + 1 * (0 + 1 * 0) = t.val; omega
  | ⟨1, _⟩ => show win1_2.index t (1 : Fin 3) * 8 + 1 * (0 + 1 * 0) = 0; omega
  | ⟨2, _⟩ => show win1_2.index t (2 : Fin 3) * 128 + 1 * (0 + 1 * 0) = 0; omega

/-! ## Output window 3: the count of agreements -/

theorem mem_blk3 (t : Fin cfg1.N) (i : S32x8x128.Idx) :
    i ∈ ((cfg1.win 3).blk t).view.set ↔ ∀ a : Fin 3, win1_3.index t a * S1x8x128.size a ≤ (i a).val ∧ (i a).val < win1_3.index t a * S1x8x128.size a + S1x8x128.size a := by
  show i ∈ ((View.whole main_v3).slice (win1_3.rect t)).set ↔ _
  rw [View.set_slice_whole, Rect.mem_set_unit]
  exact Iff.rfl

/-- The 32 tiles fill the array. -/
theorem cover3 (i : S32x8x128.Idx) : ∃ t : Fin cfg1.N, (cfg1.win 3).flush t = true ∧ i ∈ ((cfg1.win 3).blk t).view.set := by
  have h0 : (i 0).val < 32 := (i 0).isLt
  have h1 : (i 1).val < 8 := (i 1).isLt
  have h2 : (i 2).val < 128 := (i 2).isLt
  let t : Fin cfg1.N := (⟨(i 0).val, h0⟩ : Fin 32).cast N_1.symm
  obtain ⟨-, -, -, ⟨e0, e1, e2⟩⟩ := idx_facts t
  have ht : t.val = (i 0).val := rfl
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 8 ≤ (i 1).val ∧ (i 1).val < win1_3.index t (1 : Fin 3) * 8 + 8; omega
  | ⟨2, _⟩ => show win1_3.index t (2 : Fin 3) * 128 ≤ (i 2).val ∧ (i 2).val < win1_3.index t (2 : Fin 3) * 128 + 128; omega

/-- Tile `t` of an array whose entry (b, i, j) is `f b` reads `f t` at every index of the tile. -/
theorem read_tiled (f : Fin 32 → EReal) (t : Fin cfg1.N) (i : Fin 8) (j : Fin 128) :
    ((cfg1.win 3).blk t).view.read (Elt Ideal) (tiled f) (ix3 (0 : Fin 1) i j) = f (t.cast N_1) := by
  obtain ⟨-, -, -, ⟨e0, e1, e2⟩⟩ := idx_facts t
  show f ((((cfg1.win 3).blk t).view.emb (ix3 (0 : Fin 1) i j)) 0) = f (t.cast N_1)
  refine congrArg f (Fin.ext ?_)
  show win1_3.index t (0 : Fin 3) * 1 + 1 * 0 = t.val
  omega

/-- What point `t` writes back is tile `t` of the array whose every tile holds its sample's count. -/
theorem flushed3 (hpay : ∀ (x0 x1 : Vec Ideal S1x512x512 .f32) (x2 : Vec Ideal S1x1x1 .f32) (i : Fin 8) (j : Fin 128), k1_pay1 (F := Ideal) x0 x1 x2 (ix3 (0 : Fin 1) i j) = count (img x0) (img x1) (x2 (ix3 (0 : Fin 1) (0 : Fin 1) (0 : Fin 1))))
    (c : Dev nD) (t : Fin cfg1.N) :
    (dat1 V c).flushed 3 t = ((cfg1.win 3).blk t).view.read (Elt Ideal) (tiled fun b => count (imgOf (V c main_v0) b) (imgOf (V c main_v1) b) ((V c main_v2_0) (ix3 b (0 : Fin 8) (0 : Fin 128)))) := by
  show (cfg1.win 3).cut (grid1.coords t) ((dat1 V c).after 3 t) = _
  rw [after1_3]
  unfold out1_3
  rw [View.canon_unit_zero hz]
  simp only [View.ld_unit_zero (S := S1x512x512) hz]
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (hpay (iblk1 V c 0 t) (iblk1 V c 1 t) (View.ld (iblk1 V c 2 t) r1_1) i j).trans ?_
  rw [img_blk0 V c t, img_blk1 V c t, corner_blk2 V c t]
  exact (read_tiled (fun b => count (imgOf (V c main_v0) b) (imgOf (V c main_v1) b) ((V c main_v2_0) (ix3 b (0 : Fin 8) (0 : Fin 128)))) t i j).symm

/-- After the launch, entry (b, i, j) of the array holds sample `b`'s count. -/
theorem arr3 (hpay : ∀ (x0 x1 : Vec Ideal S1x512x512 .f32) (x2 : Vec Ideal S1x1x1 .f32) (i : Fin 8) (j : Fin 128), k1_pay1 (F := Ideal) x0 x1 x2 (ix3 (0 : Fin 1) i j) = count (img x0) (img x1) (x2 (ix3 (0 : Fin 1) (0 : Fin 1) (0 : Fin 1))))
    (c : Dev nD) : (dat1 V c).arrAt 3 cfg1.N = tiled fun b => count (imgOf (V c main_v0) b) (imgOf (V c main_v1) b) ((V c main_v2_0) (ix3 b (0 : Fin 8) (0 : Fin 128))) :=
  (dat1 V c).arrAt_eq_of_cover 3 _ (fun t _ => flushed3 V hpay c t) cover3

end Cert.Dice.Reg1

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.PayLayout.lean ====
/-
  The layout steps the two kernel bodies share, read at an index, and the two-stage reductions between them.

  Every statistic a body stores is one number: an image is reduced along its rows into a vector of 512 entries, the
  vector is re-laid as a 512 × 1 column and reduced again into a vector of one entry, and that entry is laid out
  as 1 × 1, repeated over an 8 × 128 tile and given a leading unit axis. Read at any index of the tile the result
  is that one entry; the entry itself is the double sum (or the supremum of the row suprema) of the image.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«146692_j19842748907779_2_alg».proof.Proof.LibColumn

noncomputable section

open scoped BigOperators

namespace Cert.Dice.Pay

open Idealize.ShloMosaic Idealize.ShloMosaic.ValueIdx

section Layout
variable {α : Type}

/-- A 1 × 1 array broadcast to a × b reads its one entry everywhere: both of its axes are unit axes. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- The stored tile: a vector of one entry laid out as 1 × 1, cast to itself, repeated over a × b and given a leading
    unit axis reads that entry at every index. -/
theorem tile_apply {a b : ℕ} (v : (⟨1, ![1]⟩ : Shape).Idx → α)
    (h1 : (⟨1, ![1]⟩ : Shape).ShapeCasts ⟨2, ![1, 1]⟩) (h2 : (⟨2, ![1, 1]⟩ : Shape).ShapeCasts ⟨2, ![1, 1]⟩)
    (h3 : (⟨2, ![1, 1]⟩ : Shape).Broadcasts ⟨2, ![a, b]⟩) (h4 : (⟨2, ![a, b]⟩ : Shape).ShapeCasts ⟨3, ![1, a, b]⟩)
    (u : Fin 1) (i : Fin a) (j : Fin b) :
    shapeCast ⟨3, ![1, a, b]⟩ (broadcastTo ⟨2, ![a, b]⟩ (shapeCast ⟨2, ![1, 1]⟩ (shapeCast ⟨2, ![1, 1]⟩ v h1) h2) h3) h4
        (ix3 u i j)
      = v (ix1 (0 : Fin 1)) := by
  rw [shapeCast_ab_1ab_apply, broadcastTo_11_ab_apply, shapeCast_self, shapeCast_a_1a_apply]

end Layout

section Reduce

/-- The source index a reduction along the rows reads: the row of the reduced index, the column summed over. -/
theorem lift_row {a b : ℕ} (h : (⟨2, ![a, b]⟩ : Shape).Reduces [1] ⟨1, ![a]⟩) (r : Fin a) (c : Fin b) :
    h.lift (ix1 r) c = ix2 r c :=
  funext fun ax => match ax with | ⟨0, _⟩ => Fin.ext rfl | ⟨1, _⟩ => Fin.ext rfl

/-- The source index a reduction of a column down its one axis reads: the row summed over, the unit coordinate kept. -/
theorem lift_col {a : ℕ} (h : (⟨2, ![a, 1]⟩ : Shape).Reduces [0] ⟨1, ![1]⟩) (u : Fin 1) (r : Fin a) :
    h.lift (ix1 u) r = ix2 r u :=
  funext fun ax => match ax with | ⟨0, _⟩ => Fin.ext rfl | ⟨1, _⟩ => Fin.ext rfl

/-- A sum along the rows of an a × b matrix reads, at row r, the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- A sum down an a × 1 column reads, at its one index, the sum of the column's entries. -/
theorem colSum_apply {a : ℕ} (col : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (u : Fin 1) :
    multiReduction .add [0] ⟨1, ![1]⟩ col acc h hφ hacc (ix1 u) = ∑ r : Fin a, col (ix2 r u) :=
  (Ideal.multiReduction_add_single col acc h hφ hacc (ix1 u)).trans
    (Finset.sum_congr rfl fun r _ => congrArg col (lift_col h u r))

/-- Rows first, then the column of row sums: the double sum over the matrix. -/
theorem sum2_apply {a b : ℕ} (src : FVec Ideal ⟨2, ![a, b]⟩ .f32) (acc acc' : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩)
    (h' : (⟨2, ![a, 1]⟩ : Shape).Reduces [0] ⟨1, ![1]⟩) (hφ' : FKind.Formats .f32) (hacc' : acc' = FKind.add.neutral .f32 hφ')
    (u : Fin 1) :
    multiReduction .add [0] ⟨1, ![1]⟩
        (shapeCast ⟨2, ![a, 1]⟩ (multiReduction .add [1] ⟨1, ![a]⟩ src acc h hφ hacc) hc) acc' h' hφ' hacc' (ix1 u)
      = ∑ r : Fin a, ∑ c : Fin b, src (ix2 r c) := by
  refine (colSum_apply _ acc' h' hφ' hacc' u).trans (Finset.sum_congr rfl fun r _ => ?_)
  rw [Cert.Lib.Column.shapeCast_a_a1_apply, rowSum_apply]

/-- The f32 word of minus infinity is the bottom of the extended reals. -/
theorem ofBits_neg_inf_f32 : Ideal.ofBits .f32 0xFF800000#32 = ⊥ := by simp [Ideal.ofBits, Ideal.ieee]

/-- A maximum along the rows of an a × b matrix, from minus infinity, reads at row r the supremum of that row. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun c : Fin b => src (ix2 r c) := by
  refine (Ideal.multiReduction_maximumf_single src _ h hφ hacc (ix1 r)).trans ?_
  show Finset.fold max (Ideal.ofBits .f32 0xFF800000#32) (fun c : Fin b => src (h.lift (ix1 r) c)) Finset.univ = _
  rw [ofBits_neg_inf_f32]
  show (Finset.univ.sup fun c : Fin b => src (h.lift (ix1 r) c)) = _
  exact Finset.sup_congr rfl fun c _ => congrArg src (lift_row h r c)

/-- A maximum down an a × 1 column, from minus infinity, reads the supremum of the column's entries. -/
theorem colMax_apply {a : ℕ} (col : FVec Ideal ⟨2, ![a, 1]⟩ .f32)
    (h : (⟨2, ![a, 1]⟩ : Shape).Reduces [0] ⟨1, ![1]⟩) (hφ : FKind.Formats .f32)
    (hacc : (0xFF800000#32 : BitVec 32) = FKind.maximumf.neutral .f32 hφ) (u : Fin 1) :
    multiReduction .maximumf [0] ⟨1, ![1]⟩ col 0xFF800000#32 h hφ hacc (ix1 u)
      = Finset.univ.sup fun r : Fin a => col (ix2 r u) := by
  refine (Ideal.multiReduction_maximumf_single col _ h hφ hacc (ix1 u)).trans ?_
  show Finset.fold max (Ideal.ofBits .f32 0xFF800000#32) (fun r : Fin a => col (h.lift (ix1 u) r)) Finset.univ = _
  rw [ofBits_neg_inf_f32]
  show (Finset.univ.sup fun r : Fin a => col (h.lift (ix1 u) r)) = _
  exact Finset.sup_congr rfl fun r _ => congrArg col (lift_col h u r)

/-- Rows first, then the column of row maxima: the supremum of the row suprema. -/
theorem max2_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩)
    (h' : (⟨2, ![a, 1]⟩ : Shape).Reduces [0] ⟨1, ![1]⟩) (hφ' : FKind.Formats .f32)
    (hacc' : (0xFF800000#32 : BitVec 32) = FKind.maximumf.neutral .f32 hφ') (u : Fin 1) :
    multiReduction .maximumf [0] ⟨1, ![1]⟩
        (shapeCast ⟨2, ![a, 1]⟩ (multiReduction .maximumf [1] ⟨1, ![a]⟩ src 0xFF800000#32 h hφ hacc) hc)
        0xFF800000#32 h' hφ' hacc' (ix1 u)
      = Finset.univ.sup fun r : Fin a => Finset.univ.sup fun c : Fin b => src (ix2 r c) := by
  refine (colMax_apply _ h' hφ' hacc' u).trans (Finset.sup_congr rfl fun r _ => ?_)
  rw [Cert.Lib.Column.shapeCast_a_a1_apply, rowMax_apply]

end Reduce

end Cert.Dice.Pay

end
-- ==== Proof.PayStats.lean ====
/-
  The four statistics the first kernel body stores, each read at an index of its 1 × 8 × 128 block.

  The body views its two 1 × 512 × 512 blocks as images, reduces an image along its rows and then down the column
  of row results, and stores the one number it gets repeated over the block. Read at any index the stored value is
  therefore the image's total (of the predictions, of the targets, of their products) or its largest entry.
-/
import proofs.«146692_j19842748907779_2_alg».proof.Proof.Gen.KernelIdeal.Skeleton
import proofs.«146692_j19842748907779_2_alg».proof.Proof.Spec
import proofs.«146692_j19842748907779_2_alg».proof.Proof.PayLayout

noncomputable section

open scoped BigOperators

namespace Cert.Dice.Pay

open Cert.KernelIdeal Cert.KernelIdeal.Gen Idealize.ShloMosaic Idealize.ShloMosaic.ValueIdx

/-- A 1 × 512 × 512 block as an image. -/
def img (x : Vec Ideal S1x512x512 .f32) : Cert.Dice.Img := fun r c => x (ix3 (0 : Fin 1) r c)

/-- The block viewed as a 512 × 512 matrix reads, at (r, c), the image's entry there. -/
theorem view_apply (x : Vec Ideal S1x512x512 .f32) (h : S1x512x512.ShapeCasts S512x512) (r c : Fin 512) :
    shapeCast S512x512 x h (ix2 r c) = img x r c :=
  shapeCast_1ab_ab_apply x h r c

/-- The stored total of the predictions. -/
theorem pay_totalP (x0 : Vec Ideal S1x512x512 .f32) (i : Fin 8) (j : Fin 128) :
    k0_pay7 (F := Ideal) x0 (ix3 (0 : Fin 1) i j) = Cert.Dice.total (img x0) := by
  unfold k0_pay7 k0_pay3
  refine (tile_apply _ _ _ _ _ (0 : Fin 1) i j).trans ?_
  refine (sum2_apply _ _ _ _ _ _ _ _ _ _ (0 : Fin 1)).trans ?_
  exact Finset.sum_congr rfl fun r _ => Finset.sum_congr rfl fun c _ => view_apply x0 _ r c

/-- The stored largest target. -/
theorem pay_peak (x1 : Vec Ideal S1x512x512 .f32) (i : Fin 8) (j : Fin 128) :
    k0_pay6 (F := Ideal) x1 (ix3 (0 : Fin 1) i j) = Cert.Dice.peak (img x1) := by
  unfold k0_pay6 k0_pay4
  refine (tile_apply _ _ _ _ _ (0 : Fin 1) i j).trans ?_
  refine (max2_apply _ _ _ _ _ _ _ _ (0 : Fin 1)).trans ?_
  exact Finset.sup_congr rfl fun r _ => Finset.sup_congr rfl fun c _ => view_apply x1 _ r c

/-- The stored total of the targets. -/
theorem pay_totalT (x1 : Vec Ideal S1x512x512 .f32) (i : Fin 8) (j : Fin 128) :
    k0_pay1 (F := Ideal) (k0_pay8 (F := Ideal) x1) (ix3 (0 : Fin 1) i j) = Cert.Dice.total (img x1) := by
  unfold k0_pay1 k0_pay8 k0_pay4
  refine (tile_apply _ _ _ _ _ (0 : Fin 1) i j).trans ?_
  refine (sum2_apply _ _ _ _ _ _ _ _ _ _ (0 : Fin 1)).trans ?_
  exact Finset.sum_congr rfl fun r _ => Finset.sum_congr rfl fun c _ => view_apply x1 _ r c

/-- The stored total of the products. -/
theorem pay_totalPT (x0 x1 : Vec Ideal S1x512x512 .f32) (i : Fin 8) (j : Fin 128) :
    k0_pay2 (F := Ideal) (k0_pay5 (F := Ideal) x0 x1) (ix3 (0 : Fin 1) i j)
      = Cert.Dice.total (fun r c => img x0 r c * img x1 r c) := by
  unfold k0_pay2 k0_pay5 k0_pay3 k0_pay4
  refine (tile_apply _ _ _ _ _ (0 : Fin 1) i j).trans ?_
  refine (sum2_apply _ _ _ _ _ _ _ _ _ _ (0 : Fin 1)).trans ?_
  refine Finset.sum_congr rfl fun r _ => Finset.sum_congr rfl fun c _ => ?_
  rw [mulf_apply, view_apply, view_apply]

end Cert.Dice.Pay

end
-- ==== Proof.PayHits.lean ====
/-
  The count the second kernel body stores, read at an index of its 1 × 8 × 128 block.

  At each pixel the body compares the prediction with one half and the target with the largest target, takes the
  exclusive or of the two bits and flips it, widens the bit to a word and converts the word to a number; it then sums
  the image rows first and the column of row sums after, and stores the one number it gets repeated over the block.
  On one-bit words "exclusive or, flipped" is "equal", so the summand is the agreement value of the pixel.
-/
import proofs.«146692_j19842748907779_2_alg».proof.Proof.Gen.KernelIdeal.Skeleton
import proofs.«146692_j19842748907779_2_alg».proof.Proof.Spec
import proofs.«146692_j19842748907779_2_alg».proof.Proof.PayLayout
import proofs.«146692_j19842748907779_2_alg».proof.Proof.PayStats

noncomputable section

open scoped BigOperators

namespace Cert.Dice.Pay

open Cert.KernelIdeal Cert.KernelIdeal.Gen Idealize.ShloMosaic Idealize.ShloMosaic.ValueIdx

/-- On one-bit words the exclusive or of two bits, flipped, is the test that they are equal. -/
theorem xori_xori_one (a b : BitVec 1) : IntOp.xori (IntOp.xori a b) 1#1 = IntOp.cmpi .eq a b := by
  rcases BitVec.eq_zero_or_eq_one a with h | h <;> rcases BitVec.eq_zero_or_eq_one b with h' | h' <;>
    subst h <;> subst h' <;> rfl

/-- The corner of the largest-target block, viewed 1 × 1 and repeated over the image, reads that corner everywhere. -/
theorem corner_apply (x2 : Vec Ideal S1x1x1 .f32) (h : S1x1x1.ShapeCasts S1x1) (hb : S1x1.Broadcasts S512x512)
    (r c : Fin 512) :
    broadcastTo S512x512 (shapeCast S1x1 x2 h) hb (ix2 r c) = x2 (ix3 (0 : Fin 1) (0 : Fin 1) (0 : Fin 1)) := by
  rw [broadcastTo_11_ab_apply, shapeCast_1ab_ab_apply]

/-- The stored count of pixels at which the two tests agree. -/
theorem pay_hits (x0 x1 : Vec Ideal S1x512x512 .f32) (x2 : Vec Ideal S1x1x1 .f32) (i : Fin 8) (j : Fin 128) :
    k1_pay1 (F := Ideal) x0 x1 x2 (ix3 (0 : Fin 1) i j)
      = ∑ r : Fin 512, ∑ c : Fin 512,
          Cert.Dice.agreeVal (img x0 r c) (img x1 r c) (x2 (ix3 (0 : Fin 1) (0 : Fin 1) (0 : Fin 1))) := by
  unfold k1_pay1
  refine (tile_apply _ _ _ _ _ (0 : Fin 1) i j).trans ?_
  refine (sum2_apply _ _ _ _ _ _ _ _ _ _ (0 : Fin 1)).trans ?_
  refine Finset.sum_congr rfl fun r _ => Finset.sum_congr rfl fun c _ => ?_
  show ((((IntOp.xori (IntOp.xori
            (Ideal.cmp .ogt (shapeCast S512x512 x0 _ (ix2 r c)) Cert.Dice.half)
            (Ideal.cmp .oeq (shapeCast S512x512 x1 _ (ix2 r c))
              (broadcastTo S512x512 (shapeCast S1x1 x2 _) _ (ix2 r c)))) 1#1).setWidth 32).toInt : ℝ) : EReal) = _
  rw [xori_xori_one, view_apply, view_apply, corner_apply]
  rfl

end Cert.Dice.Pay

end
-- ==== Proof.KernelValue.lean ====
/-
  The kernel program's value as the loss of its two arguments.

  The launches find the two arguments re-laid from [32, 1, 512, 512] to [32, 512, 512]: sample `b` of the re-laid
  array is sample `b` of the argument, entry for entry, both sitting at the same row-major position. The first launch
  leaves, in every entry of sample `b`'s tile of its four output arrays, the largest target, the total of the
  predictions, the total of the targets and the total of the products of sample `b`; the second launch finds the
  re-laid arguments untouched and the array of largest targets as the first launch left it, and leaves the count of
  agreements of sample `b` in every entry of sample `b`'s tile. The host tail takes the corner of each tile, and
  the four vectors of 32 numbers it combines are the specification's.
-/
import proofs.«146692_j19842748907779_2_alg».proof.Proof.KernelRun
import proofs.«146692_j19842748907779_2_alg».proof.Proof.KernelTail
import proofs.«146692_j19842748907779_2_alg».proof.Proof.Region1
import proofs.«146692_j19842748907779_2_alg».proof.Proof.PayStats
import proofs.«146692_j19842748907779_2_alg».proof.Proof.PayHits
import Idealize.ShloMosaic.Lib.StableHlo.Run
import Idealize.ShloMosaic.Lib.Pipeline.Value

set_option maxRecDepth 16384

noncomputable section

namespace Cert.Dice.KValue

open Cert.KernelIdeal Cert.KernelIdeal.Gen Cert.Dice Cert.Dice.Reg0
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## The arrays the launches find -/

/-- The first launch finds the predictions re-laid. -/
theorem V1_v0 (c : Dev nD) :
    V1 m ρ c main_v0 = shapeCast S32x512x512 (m ((c : Thread nD τ).loc main_arg0)) shapeCasts_S32x1x512x512_S32x512x512 := by
  show StableHlo.after hostOps0 (W0 m ρ c) (Proc.devRef .tc main_v0) = _
  dsimp only [hostOps0]
  after_results
  rfl

/-- The first launch finds the targets re-laid. -/
theorem V1_v1 (c : Dev nD) :
    V1 m ρ c main_v1 = shapeCast S32x512x512 (m ((c : Thread nD τ).loc main_arg1)) shapeCasts_S32x1x512x512_S32x512x512 := by
  show StableHlo.after hostOps0 (W0 m ρ c) (Proc.devRef .tc main_v1) = _
  dsimp only [hostOps0]
  after_results
  rfl

/-- Sample `b` of the re-laid array is sample `b` of the argument. -/
theorem imgOf_relaid (A : S32x1x512x512.Idx → EReal) (b : Fin 32) :
    imgOf (shapeCast S32x512x512 A shapeCasts_S32x1x512x512_S32x512x512) b = samp A b := by
  funext r cc
  show shapeCast S32x512x512 A shapeCasts_S32x1x512x512_S32x512x512 (ix3 b r cc) = A (ix4 b (0 : Fin 1) r cc)
  refine shapeCast_apply A _ (ix3 b r cc) (ix4 b (0 : Fin 1) r cc) ?_
  rw [Shape.rowMajor_val_four, Shape.rowMajor_val_three]
  show ((b.val * 1 + 0) * 512 + r.val) * 512 + cc.val = (b.val * 512 + r.val) * 512 + cc.val
  omega

/-- The second launch finds the re-laid predictions as the first found them: an input of the first launch. -/
theorem V2_v0 (c : Dev nD) : V2 m ρ c main_v0 = V1 m ρ c main_v0 :=
  (W2_arr m ρ c 0).trans (((dat0 (V1 m ρ) c).arrAt_in 0 rfl cfg0.N).trans (A_eq0 (V1 m ρ) c 0))

/-- … and the re-laid targets likewise. -/
theorem V2_v1 (c : Dev nD) : V2 m ρ c main_v1 = V1 m ρ c main_v1 :=
  (W2_arr m ρ c 1).trans (((dat0 (V1 m ρ) c).arrAt_in 1 rfl cfg0.N).trans (A_eq0 (V1 m ρ) c 1))

/-- … and the array of largest targets as the first launch left it. -/
theorem V2_peak (c : Dev nD) : V2 m ρ c main_v2_0 = tiled fun b => peak (imgOf (V1 m ρ c main_v1) b) :=
  (W2_arr m ρ c 2).trans (Reg0.arr2 (V1 m ρ) Pay.pay_peak c)

/-! ## The corner of a tile -/

theorem corner_apply (A : FVec Ideal S32x8x128 .f32) (b : Fin 32) :
    KTail.corner A (ix1 b) = A (ix3 b (0 : Fin 8) (0 : Fin 128)) := by
  unfold KTail.corner
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply ![0, 0, 0] A slices_S32x8x128_S32x1x1_0_0_0 (ix3 b (0 : Fin 1) (0 : Fin 1)) (ix3 b (0 : Fin 8) (0 : Fin 128)) fun a => ?_
    match a with
    | ⟨0, _⟩ => show b.val = 0 + b.val; omega
    | ⟨1, _⟩ => rfl
    | ⟨2, _⟩ => rfl

/-! ## The four vectors the tail combines -/

theorem vec_sp (c : Dev nD) :
    KTail.corner (W3 m ρ c (Proc.devRef .tc main_v2_1)) = vec32 fun b => total (samp (m ((c : Thread nD τ).loc main_arg0)) b) := by
  have e : W3 m ρ c (Proc.devRef .tc main_v2_1) = tiled fun b => total (imgOf (V1 m ρ c main_v0) b) :=
    (W3_of_ne m ρ c main_v2_1 (by decide)).trans ((W2_arr m ρ c 3).trans (Reg0.arr3 (V1 m ρ) Pay.pay_totalP c))
  refine eq_vec32 _ _ fun b => ?_
  rw [corner_apply, e, tiled_apply, V1_v0, imgOf_relaid]

theorem vec_st (c : Dev nD) :
    KTail.corner (W3 m ρ c (Proc.devRef .tc main_v2_2)) = vec32 fun b => total (samp (m ((c : Thread nD τ).loc main_arg1)) b) := by
  have e : W3 m ρ c (Proc.devRef .tc main_v2_2) = tiled fun b => total (imgOf (V1 m ρ c main_v1) b) :=
    (W3_of_ne m ρ c main_v2_2 (by decide)).trans ((W2_arr m ρ c 4).trans (Reg0.arr4 (V1 m ρ) Pay.pay_totalT c))
  refine eq_vec32 _ _ fun b => ?_
  rw [corner_apply, e, tiled_apply, V1_v1, imgOf_relaid]

theorem vec_spt (c : Dev nD) :
    KTail.corner (W3 m ρ c (Proc.devRef .tc main_v2_3))
      = vec32 fun b => total fun r cc => samp (m ((c : Thread nD τ).loc main_arg0)) b r cc * samp (m ((c : Thread nD τ).loc main_arg1)) b r cc := by
  have e : W3 m ρ c (Proc.devRef .tc main_v2_3) = tiled fun b => total (fun r cc => imgOf (V1 m ρ c main_v0) b r cc * imgOf (V1 m ρ c main_v1) b r cc) :=
    (W3_of_ne m ρ c main_v2_3 (by decide)).trans ((W2_arr m ρ c 5).trans (Reg0.arr5 (V1 m ρ) Pay.pay_totalPT c))
  refine eq_vec32 _ _ fun b => ?_
  rw [corner_apply, e, tiled_apply, V1_v0, V1_v1, imgOf_relaid, imgOf_relaid]

theorem vec_corr (c : Dev nD) :
    KTail.corner (W3 m ρ c (Proc.devRef .tc main_v3))
      = vec32 fun b => hits (samp (m ((c : Thread nD τ).loc main_arg0)) b) (samp (m ((c : Thread nD τ).loc main_arg1)) b) := by
  have e : W3 m ρ c (Proc.devRef .tc main_v3)
      = tiled fun b => Reg1.count (imgOf (V2 m ρ c main_v0) b) (imgOf (V2 m ρ c main_v1) b) ((V2 m ρ c main_v2_0) (ix3 b (0 : Fin 8) (0 : Fin 128))) :=
    (W3_arr m ρ c 3).trans (Reg1.arr3 (V2 m ρ) Pay.pay_hits c)
  refine eq_vec32 _ _ fun b => ?_
  rw [corner_apply, e, tiled_apply, V2_v0, V2_v1, V2_peak, tiled_apply, V1_v0, V1_v1, imgOf_relaid, imgOf_relaid]
  exact (Reg1.hits_eq _ _).symm

/-! ## The value -/

/-- The result buffer at the last boundary is the loss of the two arguments. -/
theorem value (c : Dev nD) :
    W6 m ρ c (Proc.devRef .tc main_v28)
      = loss bcast_S_S32 reducesTo_S32_S_d0 h_S_ (m ((c : Thread nD τ).loc main_arg0)) (m ((c : Thread nD τ).loc main_arg1)) := by
  rw [KTail.tail_eq, vec_corr, vec_sp, vec_st, vec_spt]
  rfl

/-- Every weakly fair execution of the kernel program terminates, nothing faulting, with the result at the loss of the two
    arguments and the arguments as launched. -/
theorem run : θ_run defs (onTc (τ := τ) (main (F := Ideal))) ⟨m, fun _ => 0, ρ⟩ (fun r => ∀ c : Dev nD,
      r.2.mem ((c.tc : Thread nD τ).loc main_v28)
        = loss bcast_S_S32 reducesTo_S32_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (value m ρ c), (h c).2⟩) (KRun.run_named m ρ)

end Cert.Dice.KValue

end
-- ==== Proof.RefDefs.lean ====
/-
  The reference program's row statistics, named.

  The program re-lays each argument, 32 one-channel images of 512 × 512 entries, as 32 rows of 262144 entries and
  takes four reductions along the rows: the sum of the predictions, the sum of the targets, the sum of their
  products, and the count of the entries at which "the prediction exceeds one half" and "the target is its row's
  largest" agree. These are the terms the program's operations compose, over the extended reals.
-/
import proofs.«146692_j19842748907779_2_alg».proof.Proof.Gen.ReferenceIdeal
import Idealize.ShloMosaic.PureOps.Ideal

noncomputable section

namespace Cert.Dice.Ref

open Cert.ReferenceIdeal Cert.ReferenceIdeal.Gen Idealize.ShloMosaic

/-- An argument of the program: 32 one-channel images of 512 × 512 extended reals. -/
abbrev Arr := FVec Ideal S32x1x512x512 .f32

/-- An argument re-laid as 32 rows of 262144 entries. -/
def flat (A : Arr) : FVec Ideal S32x262144 .f32 :=
  shapeCast S32x262144 A shapeCasts_S32x1x512x512_S32x262144

/-- Each row's largest entry, folded from minus infinity. -/
def mxR (T : Arr) : FVec Ideal S32 .f32 :=
  Host.reduce (FloatOps.maximumf (F := Ideal) (φ := .f32)) (flat T) (constant (F := Ideal) S_ .f32 0xFF800000#32)
    reducesTo_S32x262144_S32_d1 h_S_

/-- The agreement bits, widened to 32-bit integers: "the prediction exceeds one half" against "the target is its
    row's largest". -/
def bitsR (P T : Arr) : IVec S32x262144 32 :=
  extui 32
    (cmpi .eq
      (cmpf .ogt (flat P) (broadcastInDim S32x262144 ![] bcast_S_S32x262144 (constant (F := Ideal) S_ .f32 0x3F000000#32)))
      (cmpf .oeq (flat T)
        (broadcastInDim S32x262144 ![0, 1] bcast_S32x1_S32x262144_0_1 (broadcastInDim S32x1 ![0] bcast_S32_S32x1_0 (mxR T)))))
    natLt_1_32

/-- Each row's count of agreements, summed in 32-bit integers and converted. -/
def corrR (P T : Arr) : FVec Ideal S32 .f32 :=
  sitofp (F := Ideal) .f32 (Host.reduce IntOp.addi (bitsR P T) (constantI S_ 32 0#32) reducesTo_S32x262144_S32_d1 h_S_)

/-- Each row's sum. -/
def sumR (A : Arr) : FVec Ideal S32 .f32 :=
  Host.reduceAdd (F := Ideal) (flat A) (constant (F := Ideal) S_ .f32 0x00000000#32) reducesTo_S32x262144_S32_d1 h_S_

/-- Each row's sum of products. -/
def sptR (P T : Arr) : FVec Ideal S32 .f32 :=
  Host.reduceAdd (F := Ideal) (mulf (flat P) (flat T)) (constant (F := Ideal) S_ .f32 0x00000000#32)
    reducesTo_S32x262144_S32_d1 h_S_

end Cert.Dice.Ref

end
-- ==== Proof.RefRun.lean ====
/-
  The reference program run to its end: every weakly fair execution of its 49 host operations terminates with the
  result buffer holding the loss formula applied to four vectors of 32 numbers, each a row reduction of the two
  arguments re-laid as 32 rows of 262144 entries, and with the two arguments unchanged.

  The vectors are the named row statistics (`corrR`, `sumR`, `sptR`); reading them entry by entry is a separate matter.
-/
import proofs.«146692_j19842748907779_2_alg».proof.Proof.RefDefs
import proofs.«146692_j19842748907779_2_alg».proof.Proof.Spec
import Idealize.ShloMosaic.Lib.StableHlo.Run

noncomputable section

namespace Cert.Dice.Ref

open Cert.ReferenceIdeal Cert.ReferenceIdeal.Gen Idealize.ShloMosaic Idealize.ShloMosaic.TcCoe Idealize.SL.Sem Idealize.ShloMosaic.StableHlo

section Ops

variable {F : FTy → Type} [FloatOps F]

/-- The program's 49 operations, in order (the called function's two operations stand in its call's place). -/
abbrev ops : List (HloOp τ sig (Elt F)) :=
  [ reshape main_arg0 main_v0 rfl shapeCasts_S32x1x512x512_S32x262144,
    reshape main_arg1 main_v1 rfl shapeCasts_S32x1x512x512_S32x262144,
    nullary main_cst (constant S_ .f32 0x3F000000#32),
    unary main_cst main_v2 (broadcastInDim S32x262144 ![] bcast_S_S32x262144 : (⟨S_, .f32⟩ : BufTy).Contents (Elt F) → (⟨S32x262144, .f32⟩ : BufTy).Contents (Elt F)),
    binary main_v0 main_v2 main_v3 (cmpf .ogt : (⟨S32x262144, .f32⟩ : BufTy).Contents (Elt F) → (⟨S32x262144, .f32⟩ : BufTy).Contents (Elt F) → (⟨S32x262144, .i1⟩ : BufTy).Contents (Elt F)),
    nullary main_cst_0 (constant S_ .f32 0xFF800000#32),
    binary main_v1 main_cst_0 main_v4 ((fun x v => Host.reduce FloatOps.maximumf x v reducesTo_S32x262144_S32_d1 h_S_) : (⟨S32x262144, .f32⟩ : BufTy).Contents (Elt F) → (⟨S_, .f32⟩ : BufTy).Contents (Elt F) → (⟨S32, .f32⟩ : BufTy).Contents (Elt F)),
    unary main_v4 main_v5 (broadcastInDim S32x1 ![0] bcast_S32_S32x1_0 : (⟨S32, .f32⟩ : BufTy).Contents (Elt F) → (⟨S32x1, .f32⟩ : BufTy).Contents (Elt F)),
    unary main_v5 main_v6 (broadcastInDim S32x262144 ![0, 1] bcast_S32x1_S32x262144_0_1 : (⟨S32x1, .f32⟩ : BufTy).Contents (Elt F) → (⟨S32x262144, .f32⟩ : BufTy).Contents (Elt F)),
    binary main_v1 main_v6 main_v7 (cmpf .oeq : (⟨S32x262144, .f32⟩ : BufTy).Contents (Elt F) → (⟨S32x262144, .f32⟩ : BufTy).Contents (Elt F) → (⟨S32x262144, .i1⟩ : BufTy).Contents (Elt F)),
    binary main_v3 main_v7 main_v8 (cmpi .eq : (⟨S32x262144, .i1⟩ : BufTy).Contents (Elt F) → (⟨S32x262144, .i1⟩ : BufTy).Contents (Elt F) → (⟨S32x262144, .i1⟩ : BufTy).Contents (Elt F)),
    unary main_v8 main_v9 ((extui 32 · natLt_1_32) : (⟨S32x262144, .i1⟩ : BufTy).Contents (Elt F) → (⟨S32x262144, .i32⟩ : BufTy).Contents (Elt F)),
    nullary main_c (constantI S_ 32 0#32),
    binary main_v9 main_c main_v10 ((fun x v => Host.reduce IntOp.addi x v reducesTo_S32x262144_S32_d1 h_S_) : (⟨S32x262144, .i32⟩ : BufTy).Contents (Elt F) → (⟨S_, .i32⟩ : BufTy).Contents (Elt F) → (⟨S32, .i32⟩ : BufTy).Contents (Elt F)),
    unary main_v10 main_v11 (sitofp .f32 : (⟨S32, .i32⟩ : BufTy).Contents (Elt F) → (⟨S32, .f32⟩ : BufTy).Contents (Elt F)),
    nullary main_cst_1 (constant S_ .f32 0x3F800000#32),
    unary main_cst_1 main_v12 (broadcastInDim S32 ![] bcast_S_S32 : (⟨S_, .f32⟩ : BufTy).Contents (Elt F) → (⟨S32, .f32⟩ : BufTy).Contents (Elt F)),
    binary main_v11 main_v12 main_v13 (Host.divf : (⟨S32, .f32⟩ : BufTy).Contents (Elt F) → (⟨S32, .f32⟩ : BufTy).Contents (Elt F) → (⟨S32, .f32⟩ : BufTy).Contents (Elt F)),
    binary main_v0 main_v1 main_v14 (mulf : (⟨S32x262144, .f32⟩ : BufTy).Contents (Elt F) → (⟨S32x262144, .f32⟩ : BufTy).Contents (Elt F) → (⟨S32x262144, .f32⟩ : BufTy).Contents (Elt F)),
    nullary main_cst_2 (constant S_ .f32 0x00000000#32),
    binary main_v14 main_cst_2 main_v15 ((fun x v => Host.reduceAdd x v reducesTo_S32x262144_S32_d1 h_S_) : (⟨S32x262144, .f32⟩ : BufTy).Contents (Elt F) → (⟨S_, .f32⟩ : BufTy).Contents (Elt F) → (⟨S32, .f32⟩ : BufTy).Contents (Elt F)),
    nullary main_cst_3 (constant S_ .f32 0x3F800000#32),
    unary main_cst_3 main_v16 (broadcastInDim S32 ![] bcast_S_S32 : (⟨S_, .f32⟩ : BufTy).Contents (Elt F) → (⟨S32, .f32⟩ : BufTy).Contents (Elt F)),
    binary main_v15 main_v16 main_v17 (addf : (⟨S32, .f32⟩ : BufTy).Contents (Elt F) → (⟨S32, .f32⟩ : BufTy).Contents (Elt F) → (⟨S32, .f32⟩ : BufTy).Contents (Elt F)),
    nullary main_cst_4 (constant S_ .f32 0x40000000#32),
    unary main_cst_4 main_v18 (broadcastInDim S32 ![] bcast_S_S32 : (⟨S_, .f32⟩ : BufTy).Contents (Elt F) → (⟨S32, .f32⟩ : BufTy).Contents (Elt F)),
    binary main_v18 main_v17 main_v19 (mulf : (⟨S32, .f32⟩ : BufTy).Contents (Elt F) → (⟨S32, .f32⟩ : BufTy).Contents (Elt F) → (⟨S32, .f32⟩ : BufTy).Contents (Elt F)),
    nullary main_cst_5 (constant S_ .f32 0x00000000#32),
    binary main_v0 main_cst_5 main_v20 ((fun x v => Host.reduceAdd x v reducesTo_S32x262144_S32_d1 h_S_) : (⟨S32x262144, .f32⟩ : BufTy).Contents (Elt F) → (⟨S_, .f32⟩ : BufTy).Contents (Elt F) → (⟨S32, .f32⟩ : BufTy).Contents (Elt F)),
    nullary main_cst_6 (constant S_ .f32 0x00000000#32),
    binary main_v1 main_cst_6 main_v21 ((fun x v => Host.reduceAdd x v reducesTo_S32x262144_S32_d1 h_S_) : (⟨S32x262144, .f32⟩ : BufTy).Contents (Elt F) → (⟨S_, .f32⟩ : BufTy).Contents (Elt F) → (⟨S32, .f32⟩ : BufTy).Contents (Elt F)),
    binary main_v20 main_v21 main_v22 (addf : (⟨S32, .f32⟩ : BufTy).Contents (Elt F) → (⟨S32, .f32⟩ : BufTy).Contents (Elt F) → (⟨S32, .f32⟩ : BufTy).Contents (Elt F)),
    nullary main_cst_7 (constant S_ .f32 0x3F800000#32),
    unary main_cst_7 main_v23 (broadcastInDim S32 ![] bcast_S_S32 : (⟨S_, .f32⟩ : BufTy).Contents (Elt F) → (⟨S32, .f32⟩ : BufTy).Contents (Elt F)),
    binary main_v22 main_v23 main_v24 (addf : (⟨S32, .f32⟩ : BufTy).Contents (Elt F) → (⟨S32, .f32⟩ : BufTy).Contents (Elt F) → (⟨S32, .f32⟩ : BufTy).Contents (Elt F)),
    binary main_v19 main_v24 main_v25 (Host.divf : (⟨S32, .f32⟩ : BufTy).Contents (Elt F) → (⟨S32, .f32⟩ : BufTy).Contents (Elt F) → (⟨S32, .f32⟩ : BufTy).Contents (Elt F)),
    nullary main_cst_8 (constant S_ .f32 0x3F800000#32),
    unary main_cst_8 main_v26 (broadcastInDim S32 ![] bcast_S_S32 : (⟨S_, .f32⟩ : BufTy).Contents (Elt F) → (⟨S32, .f32⟩ : BufTy).Contents (Elt F)),
    binary main_v13 main_v26 main_v27 (cmpf .oeq : (⟨S32, .f32⟩ : BufTy).Contents (Elt F) → (⟨S32, .f32⟩ : BufTy).Contents (Elt F) → (⟨S32, .i1⟩ : BufTy).Contents (Elt F)),
    nullary main_cst_9 (constant S_ .f32 0x3F800000#32),
    TRef.unary (TRef.of (T := ⟨S_, .f32⟩) main_cst_9) (TRef.of (T := ⟨S32, .f32⟩) main_call0_v0) (broadcastInDim S32 ![] bcast_S_S32),
    TRef.ternary (TRef.of (T := ⟨S32, .i1⟩) main_v27) (TRef.of (T := ⟨S32, .f32⟩) main_call0_v0) (TRef.of (T := ⟨S32, .f32⟩) main_v25) (TRef.of (T := ⟨S32, .f32⟩) main_v28) select,
    nullary main_cst_10 (constant S_ .f32 0x3F800000#32),
    unary main_cst_10 main_v29 (broadcastInDim S32 ![] bcast_S_S32 : (⟨S_, .f32⟩ : BufTy).Contents (Elt F) → (⟨S32, .f32⟩ : BufTy).Contents (Elt F)),
    binary main_v29 main_v28 main_v30 (subf : (⟨S32, .f32⟩ : BufTy).Contents (Elt F) → (⟨S32, .f32⟩ : BufTy).Contents (Elt F) → (⟨S32, .f32⟩ : BufTy).Contents (Elt F)),
    nullary main_cst_11 (constant S_ .f32 0x00000000#32),
    binary main_v30 main_cst_11 main_v31 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_12 (constant S_ .f32 0x42000000#32),
    binary main_v31 main_cst_12 main_v32 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., nullary_bufs_sub .., unary_bufs_sub .., binary_bufs_sub .., nullary_bufs_sub .., binary_bufs_sub .., unary_bufs_sub .., unary_bufs_sub .., binary_bufs_sub .., binary_bufs_sub .., unary_bufs_sub .., nullary_bufs_sub .., binary_bufs_sub .., unary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., binary_bufs_sub .., nullary_bufs_sub .., binary_bufs_sub ..⟩

end Ops

set_option maxRecDepth 8192 in
set_option maxHeartbeats 2000000 in
/-- On the one device, from any memory with zero counters: every weakly fair execution of the program terminates
    with the result at the loss formula of the four row statistics, and the arguments unchanged. -/
theorem run_raw (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = Cert.Dice.lossOf bcast_S_S32 reducesTo_S32_S_d0 h_S_
              (corrR (m ((c.tc : Thread nD τ).loc main_arg0)) (m ((c.tc : Thread nD τ).loc main_arg1)))
              (sumR (m ((c.tc : Thread nD τ).loc main_arg0)))
              (sumR (m ((c.tc : Thread nD τ).loc main_arg1)))
              (sptR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Dice.Ref

end
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.Regroup.lean ====
/-
  Regrouping laws for the row statistics, over abstract index types: no program here.

  * `sup_tiles`: the supremum over `A * B` consecutive entries is the supremum over `A` tiles of the suprema over
    each tile's `B` entries (the companion of the same law for sums).
  * `coe_sum`: the embedding of the reals into the extended reals commutes with finite sums.
  * `count_law`: a sum in 32-bit integers of fewer than 2 ^ 31 zeros and ones does not wrap, so converting the
    integer total to an extended real gives the sum of the converted zeros and ones.
-/
import Mathlib.Data.EReal.Basic
import Idealize.ShloMosaic.Lib.IndicatorCount
import Idealize.ShloMosaic.Lib.ValueIdx
import proofs.«146692_j19842748907779_2_alg».proof.Proof.LibTileSum

noncomputable section

open scoped BigOperators

namespace Cert.Dice.Ref

open Idealize.ShloMosaic Cert.Lib.TileSum

/-- A supremum over all entries is the supremum over the tiles of the suprema over each tile's entries. -/
theorem sup_tiles {α : Type} [SemilatticeSup α] [OrderBot α] {A B N : ℕ} (h : A * B = N) (f : Fin N → α) :
    (Finset.univ.sup fun t : Fin A => Finset.univ.sup fun r : Fin B => f (tileRow h t r)) = Finset.univ.sup f := by
  subst h
  apply le_antisymm
  · exact Finset.sup_le fun t _ => Finset.sup_le fun r _ => Finset.le_sup (f := f) (Finset.mem_univ _)
  · refine Finset.sup_le fun j _ => ?_
    obtain ⟨x, rfl⟩ := finProdFinEquiv.surjective j
    have e : tileRow rfl x.1 x.2 = finProdFinEquiv x := Fin.ext (Nat.add_comm _ _)
    rw [← e]
    exact le_trans (Finset.le_sup (f := fun r => f (tileRow rfl x.1 r)) (Finset.mem_univ x.2))
      (Finset.le_sup (f := fun t => Finset.univ.sup fun r => f (tileRow rfl t r)) (Finset.mem_univ x.1))

/-- The embedding of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A one-bit word widened to 32 bits and read as a signed integer is 1 or 0. -/
theorem bit_val (x : BitVec 1) : (((x.setWidth 32).toInt : ℤ) : ℝ) = if x = 1#1 then 1 else 0 := by
  by_cases h : x = 1#1
  · subst h
    have e : ((1#1 : BitVec 1).setWidth 32).toInt = 1 := by decide
    rw [e, if_pos rfl]; norm_num
  · rw [ValueIdx.eq_zero_of_ne_one h]
    have e : ((0#1 : BitVec 1).setWidth 32).toInt = 0 := by decide
    rw [e, if_neg (by decide)]; norm_num

/-- Fewer than 2 ^ 31 zeros and ones summed in 32-bit integers: the integer total, converted, is the sum of the
    converted entries. -/
theorem count_law {ι : Type} [Fintype ι] (b : ι → BitVec 1) (hc : Fintype.card ι < 2 ^ 31) :
    (((Finset.univ.fold IntOp.addi (0#32) fun k => (b k).setWidth 32).toInt : ℝ) : EReal)
      = ∑ k, ((((b k).setWidth 32).toInt : ℝ) : EReal) := by
  classical
  rw [IndicatorCount.fold_addi_setWidth_eq_card]
  have hle : (Finset.univ.filter fun k => b k = 1#1).card ≤ Fintype.card ι := Finset.card_le_univ _
  generalize hcd : (Finset.univ.filter fun k => b k = 1#1).card = c at hle
  have hInt : (BitVec.ofNat 32 c).toInt = (c : ℤ) := by
    rw [BitVec.toInt_eq_toNat_cond, BitVec.toNat_ofNat]
    have hm : c % 2 ^ 32 = c := Nat.mod_eq_of_lt (by omega)
    rw [hm]
    split <;> omega
  rw [hInt, ← coe_sum]
  congr 1
  rw [Finset.sum_congr rfl (fun k _ => bit_val (b k)), Finset.sum_boole, hcd]
  norm_num

end Cert.Dice.Ref

end
-- ==== Proof.RefValue.lean ====
/-
  The reference program's four row statistics read entry by entry, and its run stated over the loss of the two
  arguments.

  Each statistic is a reduction along the 262144 entries of a row of the re-laid argument. Entry `512 r + c` of row
  `b` of the re-laid array is entry `(b, 0, r, c)` of the argument, so a sum (a supremum) over the row regroups
  into the sum (supremum) over the 512 image rows of the sums (suprema) over each image row's 512 entries: on the
  extended reals, by commutativity and associativity alone. The count is a sum of zeros and ones in 32-bit
  integers, fewer than 2 ^ 31 of them, so it does not wrap.
-/
import proofs.«146692_j19842748907779_2_alg».proof.Proof.RefRun
import proofs.«146692_j19842748907779_2_alg».proof.Proof.Spec
import proofs.«146692_j19842748907779_2_alg».proof.Proof.Regroup
import Idealize.ShloMosaic.Lib.Pipeline.Value
import Idealize.ShloMosaic.PureOps.Ideal.Laws

noncomputable section

open scoped BigOperators

namespace Cert.Dice.Ref

open Cert.ReferenceIdeal Cert.ReferenceIdeal.Gen Idealize.ShloMosaic Idealize.ShloMosaic.TcCoe Idealize.SL.Sem
  Idealize.ShloMosaic.ValueIdx Cert.Lib.TileSum

/-- 512 image rows of 512 entries make a row of 262144 entries. -/
theorem tiles : 512 * 512 = 262144 := by norm_num

/-- Reducing the second axis of 32 × 262144 leaves 32 entries. -/
theorem reduces_rows : S32x262144.Reduces [1] S32 := by decide

/-- Entry `b` of a reduction's result is folded over the entries `(b, k)` of the operand. -/
theorem lift_row (b : Fin 32) (k : Fin 262144) : reduces_rows.lift (ix1 b) k = ix2 b k :=
  funext fun a => Fin.ext (by match a with | ⟨0, _⟩ => rfl | ⟨1, _⟩ => rfl)

/-- Entry `512 r + c` of row `b` of the re-laid array is entry `(b, 0, r, c)` of the argument. -/
theorem flat_apply (A : Arr) (b : Fin 32) (r c : Fin 512) :
    flat A (ix2 b (tileRow tiles r c)) = A (ix4 b 0 r c) := by
  unfold flat
  refine shapeCast_apply A shapeCasts_S32x1x512x512_S32x262144 _ _ ?_
  rw [Shape.rowMajor_val_four, Shape.rowMajor_val_two]
  show ((b.val * 1 + 0) * 512 + r.val) * 512 + c.val = b.val * 262144 + (512 * r.val + c.val)
  omega

/-- A row's sum, from zero, is the total of the sample. -/
theorem sumR_apply (A : Arr) (b : Fin 32) : sumR A (ix1 b) = total (samp A b) := by
  unfold sumR
  simp only [Host.reduceAdd, Ideal.hostReduceAdd_def]
  rw [Ideal.hostReduceAdd_single reducesTo_S32x262144_S32_d1 reduces_rows]
  rw [constant_apply, Ideal.ofBits_zero_f32, zero_add]
  refine (sum_tiles tiles fun k => flat A (reduces_rows.lift (ix1 b) k)).symm.trans ?_
  refine Finset.sum_congr rfl fun r _ => Finset.sum_congr rfl fun c _ => ?_
  rw [lift_row]
  exact flat_apply A b r c

/-- A row's sum of products, from zero, is the total of the sample's products. -/
theorem sptR_apply (P T : Arr) (b : Fin 32) :
    sptR P T (ix1 b) = total fun r c => samp P b r c * samp T b r c := by
  unfold sptR
  simp only [Host.reduceAdd, Ideal.hostReduceAdd_def]
  rw [Ideal.hostReduceAdd_single reducesTo_S32x262144_S32_d1 reduces_rows]
  rw [constant_apply, Ideal.ofBits_zero_f32, zero_add]
  refine (sum_tiles tiles fun k => mulf (flat P) (flat T) (reduces_rows.lift (ix1 b) k)).symm.trans ?_
  refine Finset.sum_congr rfl fun r _ => Finset.sum_congr rfl fun c _ => ?_
  rw [lift_row, mulf_apply, flat_apply, flat_apply]
  rfl

/-- The word the maximum is folded from is minus infinity. -/
theorem ofBits_neg_inf : Ideal.ofBits .f32 0xFF800000#32 = (⊥ : EReal) := by simp [Ideal.ofBits, Ideal.ieee]

/-- A row's largest entry, folded from minus infinity, is the peak of the sample. -/
theorem mxR_apply (T : Arr) (b : Fin 32) : mxR T (ix1 b) = peak (samp T b) := by
  unfold mxR
  rw [Host.reduce_eq_fold_single _ _ _ reducesTo_S32x262144_S32_d1 reduces_rows h_S_]
  rw [constant_apply, ofBits_neg_inf]
  refine Eq.trans (?_ : _ = Finset.univ.sup fun k : Fin 262144 => flat T (reduces_rows.lift (ix1 b) k)) ?_
  · rfl
  refine (sup_tiles tiles fun k => flat T (reduces_rows.lift (ix1 b) k)).symm.trans ?_
  refine Finset.sup_congr rfl fun r _ => Finset.sup_congr rfl fun c _ => ?_
  rw [lift_row]
  exact flat_apply T b r c

/-- One half repeated over the re-laid array reads one half everywhere. -/
theorem halfB_apply (i : S32x262144.Idx) :
    broadcastInDim S32x262144 ![] bcast_S_S32x262144 (constant (F := Ideal) S_ .f32 0x3F000000#32) i = half :=
  broadcastInDim_apply _ bcast_S_S32x262144 _ i ix0 (fun a => a.elim0)

/-- A vector of 32 entries laid as a column and repeated along the rows reads, at `(b, k)`, its entry `b`. -/
theorem colB_apply (v : FVec Ideal S32 .f32) (b : Fin 32) (k : Fin 262144) :
    broadcastInDim S32x262144 ![0, 1] bcast_S32x1_S32x262144_0_1 (broadcastInDim S32x1 ![0] bcast_S32_S32x1_0 v) (ix2 b k)
      = v (ix1 b) := by
  rw [broadcastInDim_apply _ bcast_S32x1_S32x262144_0_1 _ (ix2 b k) (ix2 b (0 : Fin 1)) (fun a => match a with
    | ⟨0, _⟩ => by show b.val = if (32 : Nat) = 1 then 0 else b.val; rw [if_neg (by decide)]
    | ⟨1, _⟩ => by show 0 = if (1 : Nat) = 1 then 0 else k.val; rw [if_pos rfl])]
  exact broadcastInDim_apply _ bcast_S32_S32x1_0 v (ix2 b (0 : Fin 1)) (ix1 b) (fun a => match a with
    | ⟨0, _⟩ => by show b.val = if (32 : Nat) = 1 then 0 else b.val; rw [if_neg (by decide)])

/-- The widened agreement bit at entry `512 r + c` of row `b` is the sample's agreement bit at `(r, c)`. -/
theorem bitsR_apply (P T : Arr) (b : Fin 32) (r c : Fin 512) :
    bitsR P T (ix2 b (tileRow tiles r c))
      = (agree (samp P b r c) (samp T b r c) (peak (samp T b))).setWidth 32 := by
  unfold bitsR agree
  rw [extui_apply]
  show (IntOp.cmpi .eq
      (Ideal.cmp .ogt (flat P (ix2 b (tileRow tiles r c)))
        (broadcastInDim S32x262144 ![] bcast_S_S32x262144 (constant (F := Ideal) S_ .f32 0x3F000000#32) (ix2 b (tileRow tiles r c))))
      (Ideal.cmp .oeq (flat T (ix2 b (tileRow tiles r c)))
        (broadcastInDim S32x262144 ![0, 1] bcast_S32x1_S32x262144_0_1 (broadcastInDim S32x1 ![0] bcast_S32_S32x1_0 (mxR T))
          (ix2 b (tileRow tiles r c))))).setWidth 32 = _
  rw [flat_apply, flat_apply, halfB_apply, colB_apply, mxR_apply]
  rfl

/-- The agreement bits before they are widened. -/
def agreeR (P T : Arr) : IVec S32x262144 1 :=
  cmpi .eq
    (cmpf .ogt (flat P) (broadcastInDim S32x262144 ![] bcast_S_S32x262144 (constant (F := Ideal) S_ .f32 0x3F000000#32)))
    (cmpf .oeq (flat T)
      (broadcastInDim S32x262144 ![0, 1] bcast_S32x1_S32x262144_0_1 (broadcastInDim S32x1 ![0] bcast_S32_S32x1_0 (mxR T))))

theorem bitsR_eq (P T : Arr) (i : S32x262144.Idx) : bitsR P T i = (agreeR P T i).setWidth 32 := rfl

/-- A row's count of agreements is the sample's number of hits: the 262144 zeros and ones are summed in 32-bit
    integers without wrapping, and the sum regroups by image rows. -/
theorem corrR_apply (P T : Arr) (b : Fin 32) : corrR P T (ix1 b) = hits (samp P b) (samp T b) := by
  unfold corrR
  rw [sitofp_apply, Host.reduce_eq_fold_single IntOp.addi _ _ reducesTo_S32x262144_S32_d1 reduces_rows h_S_]
  show (((Finset.univ.fold IntOp.addi (0#32)
      fun k : Fin 262144 => (agreeR P T (reduces_rows.lift (ix1 b) k)).setWidth 32).toInt : ℝ) : EReal) = _
  rw [count_law _ (by rw [Fintype.card_fin]; norm_num)]
  unfold hits
  refine (sum_tiles tiles fun k =>
    ((((agreeR P T (reduces_rows.lift (ix1 b) k)).setWidth 32).toInt : ℝ) : EReal)).symm.trans ?_
  refine Finset.sum_congr rfl fun r _ => Finset.sum_congr rfl fun c _ => ?_
  rw [lift_row, ← bitsR_eq, bitsR_apply]
  rfl

/-! ## The four vectors -/

theorem corrR_eq (P T : Arr) : corrR P T = vec32 fun b => hits (samp P b) (samp T b) :=
  eq_vec32 _ _ fun b => corrR_apply P T b

theorem sumR_eq (A : Arr) : sumR A = vec32 fun b => total (samp A b) :=
  eq_vec32 _ _ fun b => sumR_apply A b

theorem sptR_eq (P T : Arr) : sptR P T = vec32 fun b => total fun r c => samp P b r c * samp T b r c :=
  eq_vec32 _ _ fun b => sptR_apply P T b

/-- The loss formula of the program's four row statistics is the loss of the two arguments. -/
theorem lossOf_rows (P T : Arr) :
    lossOf bcast_S_S32 reducesTo_S32_S_d0 h_S_ (corrR P T) (sumR P) (sumR T) (sptR P T)
      = loss bcast_S_S32 reducesTo_S32_S_d0 h_S_ P T := by
  rw [corrR_eq, sumR_eq, sumR_eq, sptR_eq]
  rfl

/-! ## The run, over the loss of the two arguments -/

/-- On the one device, from any memory with zero counters: every weakly fair execution of the program terminates
    with the result at the loss of the two arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = Cert.Dice.loss bcast_S_S32 reducesTo_S32_S_d0 h_S_
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (lossOf_rows _ _), (h c).2.1, (h c).2.2⟩) (run_raw m ρ)

end Cert.Dice.Ref

end
-- ==== Proof.lean ====
/-
  The soft-dice loss kernel against its jnp reference, on the extended reals.

  Both programs take predictions and targets of shape [32, 1, 512, 512] and return one number. Per sample they need
  four statistics: the total of the predictions, the total of the targets, the total of the products, and the number
  of pixels at which "the prediction exceeds one half" and "the target equals the sample's largest target" agree.
  From the four vectors of 32 statistics both compute the same expression: with acc = hits / 1 and
  score = 2 (Σ p·t + 1) / (Σ p + Σ t + 1), replaced by 1 where acc = 1, the mean of 1 - score.

  The kernel takes the statistics in two launches over the 32 samples: the first reduces each 512 × 512 image along
  its rows and then down the column of row results, for the largest target and the three totals; the second, given
  the largest target, converts each pixel's agreement bit to 0.0 or 1.0 and totals those the same way. The reference
  lays each sample out as one row of 262144 entries and reduces along it, counting the agreements in 32-bit integers
  before converting the count to a float.

  The two agree at every input, finite or not: a sum over 512 rows of sums over 512 columns is the sum over all
  262144 entries, and the same for a supremum, by commutativity and associativity alone; and an integer count of at
  most 262144 zeros and ones does not wrap, so its conversion is the real sum of the converted bits. The precondition
  is never opened.

  Modules: Spec (the loss as one function of the two arrays); PayLayout, PayStats, PayHits (the kernel bodies'
  stored values read at an index); Region0, Region1 (each launch's output arrays as whole-array functions);
  KernelRun, KernelTail, KernelValue (the kernel program's run, its host tail, its value); Regroup, RefRun, RefValue
  (the regrouping and counting laws, the reference's run and its value).
-/
import proofs.«146692_j19842748907779_2_alg».proof.Defs
import proofs.«146692_j19842748907779_2_alg».proof.Proof.Gen.Kernel
import proofs.«146692_j19842748907779_2_alg».proof.Proof.Gen.Kernel.Frame
import proofs.«146692_j19842748907779_2_alg».proof.Proof.Gen.KernelIdeal
import proofs.«146692_j19842748907779_2_alg».proof.Proof.Gen.KernelIdeal.Frame
import proofs.«146692_j19842748907779_2_alg».proof.Proof.Gen.ReferenceIdeal
import proofs.«146692_j19842748907779_2_alg».proof.Proof.Gen.Pre_finite_inputs
import proofs.«146692_j19842748907779_2_alg».proof.Proof.KernelValue
import proofs.«146692_j19842748907779_2_alg».proof.Proof.RefValue

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Dice.Ref.run m ρ)

/-- From memories agreeing on the two arguments both programs end at the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Dice.KValue.run m ρ, ?_⟩
  refine (θ_run Cert.ReferenceIdeal.defs _ _).mono (fun _ h c => ⟨(h c).1.trans ?_, (h c).2⟩) (Cert.Dice.Ref.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
